-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x32 .f32) (main_arg3 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S1x32 : Shape := ⟨2, ![1, 32]⟩
abbrev S10000x32 : Shape := ⟨2, ![10000, 32]⟩
abbrev S416x10000 : Shape := ⟨2, ![416, 10000]⟩
abbrev S416x32 : Shape := ⟨2, ![416, 32]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S1x32, .f32⟩
  | .hbm, ⟨5, _⟩ => ⟨S10000x32, .f32⟩
  | .local _ .vmem, ⟨0, _⟩ => ⟨S416x10000, .f32⟩
  | .local _ .vmem, ⟨1, _⟩ => ⟨S416x10000, .f32⟩
  | .local _ .vmem, ⟨2, _⟩ => ⟨S10000x128, .f32⟩
  | .local _ .vmem, ⟨3, _⟩ => ⟨S128x32, .f32⟩
  | .local _ .vmem, ⟨4, _⟩ => ⟨S1x32, .f32⟩
  | .local _ .vmem, ⟨5, _⟩ => ⟨S416x32, .f32⟩
  | .local _ .vmem, ⟨6, _⟩ => ⟨S416x32, .f32⟩
  | .local _ .vmem, ⟨7, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c24_i32 : BitVec 32 := 24#32
  let v0 : BitVec 32 := Scalar.addi arg0 c24_i32
  let c25_i32 : BitVec 32 := 25#32
  let c0_i32 : BitVec 32 := 0#32
  let v1 : BitVec 1 := Scalar.cmpi .eq c25_i32 c0_i32
  let c1_i32 : BitVec 32 := 1#32
  let v2 : BitVec 32 := Scalar.select v1 c1_i32 c25_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c24_i32 : BitVec 32 := 24#32
  let v0 : BitVec 32 := Scalar.addi arg0 c24_i32
  let c25_i32 : BitVec 32 := 25#32
  let c0_i32 : BitVec 32 := 0#32
  let v1 : BitVec 1 := Scalar.cmpi .eq c25_i32 c0_i32
  let c1_i32 : BitVec 32 := 1#32
  let v2 : BitVec 32 := Scalar.select v1 c1_i32 c25_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

abbrev stage0_0 : Fin 2 → Memref sig .tc .vmem S416x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S416x10000_S416x10000_0_0 : ∀ a, (![0, 0] : Fin 2 → Nat) a + S416x10000.size a ≤ S416x10000.size a
  h_S416x10000 : 0 < S416x10000.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S416x32 : S1x32.Broadcasts S416x32
  inb_S416x32_S416x32_0_0 : ∀ a, (![0, 0] : Fin 2 → Nat) a + S416x32.size a ≤ S416x32.size a
  h_S416x32 : 0 < S416x32.numel
  dot_S10000x128_S128x32_S10000x32_1_0_0_1_n_n_wf : DotDims.WF S10000x128 S128x32 S10000x32 [1] [0] [0] [1] [] []
  dot_S416x10000_S10000x32_S416x32_1_0_0_1_n_n_wf : DotDims.WF S416x10000 S10000x32 S416x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S416x10000.size a < S10000x10000.size a
  hwx0_0 : ∀ i : grid0.Coords, EltTy.bits .f32 = 32 ∨ (Rect.unit (s := S10000x10000) (fun a => cc0_transform_0 i a * S416x10000.size a) (fun a => (Pipeline.Clip.of (cc0_transform_0 i a) (S416x10000.size a) (S10000x10000.size a)).extent (S416x10000.size a)) fun a => Pipeline.Clip.inb (Pipeline.Clip.ok_of (hstart0_0 i a))).WholeWords (EltTy.packing .f32)
  hwxs0_0 : ∀ i : grid0.Coords, EltTy.bits .f32 = 32 ∨ (Rect.unit (s := S416x10000) (fun _ => 0) (fun a => (Pipeline.Clip.of (cc0_transform_0 i a) (S416x10000.size a) (S10000x10000.size a)).extent (S416x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S416x32.size a < S10000x32.size a
  hwx0_4 : ∀ i : grid0.Coords, EltTy.bits .f32 = 32 ∨ (Rect.unit (s := S10000x32) (fun a => cc0_transform_4 i a * S416x32.size a) (fun a => (Pipeline.Clip.of (cc0_transform_4 i a) (S416x32.size a) (S10000x32.size a)).extent (S416x32.size a)) fun a => Pipeline.Clip.inb (Pipeline.Clip.ok_of (hstart0_4 i a))).WholeWords (EltTy.packing .f32)
  hwxs0_4 : ∀ i : grid0.Coords, EltTy.bits .f32 = 32 ∨ (Rect.unit (s := S416x32) (fun _ => 0) (fun a => (Pipeline.Clip.of (cc0_transform_4 i a) (S416x32.size a) (S10000x32.size a)).extent (S416x32.size a)) fun a => (Nat.zero_add _).trans_le (Pipeline.Clip.extent_le (Pipeline.Clip.ok_of (hstart0_4 i a)))).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S416x10000_S10000x32_S416x32_1_0_0_1_n_n : DotDims S416x10000 S10000x32 S416x32 where
  lhsContracting := [1]
  rhsContracting := [0]
  lhsNonContracting := [0]
  rhsNonContracting := [1]
  lhsBatch := []
  rhsBatch := []
  wf := dot_S416x10000_S10000x32_S416x32_1_0_0_1_n_n_wf

abbrev win0_0 : Pipeline.Window sig grid0 :=
  Pipeline.Window.ofSpecClip (Memref.whole main_arg1) S416x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S416x32.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S10000x32 : Shape := ⟨2, ![10000, 32]⟩
abbrev S1x32 : Shape := ⟨2, ![1, 32]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S10000x32, .f32⟩
  | .hbm, ⟨5, _⟩ => ⟨S10000x32, .f32⟩
  | .hbm, ⟨6, _⟩ => ⟨S1x32, .f32⟩
  | .hbm, ⟨7, _⟩ => ⟨S10000x32, .f32⟩
  | .hbm, ⟨8, _⟩ => ⟨S10000x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S_, .f32⟩
  | .hbm, ⟨15, _⟩ => ⟨S10000x32, .f32⟩
  | .hbm, ⟨16, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.KRuns.lean ====
/-
  What the two cases of the kernel body share. The body branches once, on whether the grid point is the first:
  there it computes the product x · W into the scratch array; at every point it then multiplies its block of
  rows of the adjacency matrix against the scratch array, adds the bias row and applies the logistic function.
  Here: the branch condition in closed form over the 25 grid points, the staging memrefs the body is called
  with at a point, and the region's invariant with the scratch array spelt as a memref.
-/
import proofs.«106086_g11184094839116_rerun558fix_278_31_alg».proof.Proof.Gen.Kernel.Frame
import proofs.«106086_g11184094839116_rerun558fix_278_31_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinates: "this is the first grid point". -/
abbrev firstPt (i : grid0.Coords) : Prop :=
  (Scalar.cmpi .ne (Scalar.extui (Scalar.cmpi .eq (BitVec.ofNat 32 (i 0).val) 0#32)) 0#32) = 1#1

/-- It holds at point 0 and at no other of the 25 points. -/
theorem firstPt_iff : ∀ t : Fin cfg0.N, firstPt (grid0.coords t) ↔ t.val = 0 :=
  (by decide +kernel : ∀ t : Fin grid0.N, firstPt (grid0.coords t) ↔ t.val = 0)

/-- No window is idle at any point. -/
theorem live (w : Fin cfg0.W) (t : Fin cfg0.N) : cfg0.idle w (grid0.coords t) = false := rfl

/-- Each window's current staging memref at point `t`, and its wholeness. -/
abbrev ms0 (t : Fin cfg0.N) : Memref sig .tc .vmem S416x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S416x32 .f32 := win0_4.stage (cfg0.slots t 4)
abbrev hs4 (t : Fin cfg0.N) : (ms4 t).IsWhole := hstage0_4 ((cfg0.slots t 4).cast nbuf0_4)
/-- The scratch array: a whole scoped buffer of the kernel's own. -/
abbrev scM : Memref sig .tc .vmem S10000x32 .f32 := Memref.whole cc0_scratch0
/-- One staging buffer of the output window, and the scratch array, as views: contents are stated through them. -/
abbrev VO : View sig .tc .vmem S416x32 .f32 := (Memref.whole cc0_stg4_0 : Memref sig .tc .vmem S416x32 .f32).view
abbrev VS : View sig .tc .vmem S10000x32 .f32 := scM.view

/-- The region's class invariant with the scratch array as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KRunA.lean ====
/-
  The kernel body at the first grid point, on any whole staging memrefs: it loads x and W, stores their product
  into the scratch array (whatever that held), then loads its block of adjacency rows, the scratch array and the
  bias row and stores the block's output. The four inputs' buffers are handed back as they were; the output's
  buffer and the scratch array come back with the stores written, as lists of the pieces stored.
-/
import proofs.«106086_g11184094839116_rerun558fix_278_31_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The first point's run: the pieces stored into the output's buffer (`L4`) and into the scratch array (`LS`),
    with the proof that the body runs to a continuation holding them written. -/
noncomputable def kernelRunA (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i)
    (x0 : Vec F S416x10000 .f32) (x1 : Vec F S10000x128 .f32) (x2 : Vec F S128x32 .f32) (x3 : Vec F S1x32 .f32) :
    Σ' (L4 : List (View.Piece (Elt F) S416x32 .f32)), { LS : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, ?_, fun E K => ?run⟩
  case run =>
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Body

end
-- ==== Proof.KRunB.lean ====
/-
  The kernel body at a later grid point, on any whole staging memrefs: the branch is not taken, so x and W are
  not read and the scratch array is only read; the body loads its block of adjacency rows, the scratch array
  (at the contents `xs` the first point left) and the bias row, and stores the block's output.
-/
import proofs.«106086_g11184094839116_rerun558fix_278_31_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- A later point's run: the pieces stored into the output's buffer, with the proof that the body runs to a
    continuation holding them written, every other buffer as it was. -/
noncomputable def kernelRunB (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : ¬firstPt i)
    (x0 : Vec F S416x10000 .f32) (x3 : Vec F S1x32 .f32) (xs : Vec F S10000x32 .f32) :
    { L4 : List (View.Piece (Elt F) S416x32 .f32) //
      ∀ (x1 : Vec F S10000x128 .f32) (x2 : Vec F S128x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, fun x1 x2 E K => ?run⟩
  case run =>
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg4.eq_unread hf3; obtain rfl := harg6.eq_unread hfs
    sl_exec (disch := first | exact hc0)
    sl_step
    iapply Hk
    isplitl [H0]
    · iexists _; isplitr; · ipureintro; exact harg1.read_unread _
      iexact H0
    isplitl [H1]
    · iexists _; isplitr; · ipureintro; exact hf1
      iexact H1
    isplitl [H2]
    · iexists _; isplitr; · ipureintro; exact hf2
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Body

end
-- ==== Proof.KFrame.lean ====
/-
  The frame of the word-level kernel. Nothing the frame claims depends on what the kernel computes: the body
  runs on whatever its buffers hold, reads its four inputs' buffers and leaves them as they were, and the
  pipeline writes only the output array. So the output window is forgotten (its buffer is handed to the body at
  any contents and taken back at any contents), the scratch array is held at any contents throughout, and the
  three staged argument arrays, which no write-back touches, and the bias array, which no window stages, end
  as they were launched.
-/
import proofs.«106086_g11184094839116_rerun558fix_278_31_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents the frame does not name: the output's. -/
def forgets : Fin 5 → Bool := fun w => w.val == 4

/-- Point t's block of adjacency rows: the rows inside the array, the others zero. -/
def adjBlk (c : Dev nD) (t : Fin cfg0.N) : Vec F S416x10000 .f32 :=
  win0_0.fill (grid0.coords t) (fun _ => Scalar.ofBits .f32 0#32) (iblk m c 0 t)

/-- The proof data: the inputs' buffers at their blocks, the output's unnamed, the invariant the class's. -/
def dats (_ : Fin 1) (c : Dev nD) : Dat τ (Elt F) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = adjBlk m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

theorem before0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq m c 0]; try rfl)
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ X, owns (c : Thread nD τ) (ms4 t) fullShare X))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ X, owns (c : Thread nD τ) (ms4 t) fullShare X))

set_option maxHeartbeats 2000000 in
/-- The body at any point: the run of its case, the scratch array and the output's buffer taken back at whatever
    they then hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [after0, after1, after2, after3]
  simp only [before0 m c t, before1 m c t, before2 m c t, before3 m c t]
  rw [show win0_0.cut (grid0.coords t) (adjBlk m c t) = iblk m c 0 t from win0_0.cut_fill _ _ _]
  by_cases hz : t.val = 0
  · iintro ⟨⟨HS, Hg⟩, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((firstPt_iff t).mpr hz)
      (win0_0.fill (grid0.coords t) d0 (iblk m c 0 t)) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · iexists _; unfold owns; iexists _; isplitr
        swap; · iexact HS
        ipureintro; rfl
      iexact Hg
    isplitl [Ho]; · iexact Ho
    isplitl [H0]; · iexists d0; iexact H0
    isplitl [H1]; · iexact H1
    isplitl [H2]; · iexact H2
    isplitl [H3]; · iexact H3
    iexists _; unfold owns; iexists _; isplitr
    swap; · iexact H4
    ipureintro; rfl
  · iintro ⟨⟨⟨%ds, HS⟩, Hg⟩, Ho, ⟨%d0, H0⟩, ⟨%d1, H1⟩, ⟨%d2, H2⟩, ⟨%d3, H3⟩, ⟨%d4, H4⟩⟩
    iapply ((kernelRunB c (grid0.coords t) _ _ _ _ _ _ _ _ _ _ _ _ (fun h => hz ((firstPt_iff t).mp h))
      (win0_0.fill (grid0.coords t) d0 (iblk m c 0 t)) (iblk m c 3 t) ds).2 (iblk m c 1 t) (iblk m c 2 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexists _; iexact HS
      iexact Hg
    isplitl [Ho]; · iexact Ho
    isplitl [H0]; · iexists d0; iexact H0
    isplitl [H1]; · iexact H1
    isplitl [H2]; · iexact H2
    isplitl [H3]; · iexact H3
    iexists _; unfold owns; iexists _; isplitr
    swap; · iexact H4
    ipureintro; rfl

/-- The body obligation of the pipeline with the output window forgotten, at every point. -/
theorem body_obligation (c : Dev nD) : BodyObligationLoose (dats m 0 c) (defs₀ (F := F)) Variants.none () Set.univ forgets := fun t => by
  rw [bigSep_W0, bigSep_W0]
  exact sound_body m c t

set_option backward.isDefEq.respectTransparency.types false in
/-- Every weakly fair execution terminates; every input array of the pipeline ends at its entry contents and every
    other unscoped buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (Eq.mp (congrFun (((dats m 0 c).toRForget forgets).ArrAt_in 1 rfl _) _) ((h c).1 1)).trans ((A_eq m c 1).trans (V_main_arg0 m c)),
      (Eq.mp (congrFun (((dats m 0 c).toRForget forgets).ArrAt_in 0 rfl _) _) ((h c).1 0)).trans ((A_eq m c 0).trans (V_main_arg1 m c)),
      (Eq.mp (congrFun (((dats m 0 c).toRForget forgets).ArrAt_in 2 rfl _) _) ((h c).1 2)).trans ((A_eq m c 2).trans (V_main_arg2 m c)),
      ((h c).2 main_arg3 (Pipeline.mem_restRefs_of main_arg3 (by decide) (by decide))).trans (V_main_arg3 m c)⟩) (run_main m ρ)

end Cert.Kernel.Body

end
-- ==== Proof.KIRuns.lean ====
/-
  What the two cases of the kernel body share. The body branches once, on whether the grid point is the first:
  there it computes the product x · W into the scratch array; at every point it then multiplies its block of
  rows of the adjacency matrix against the scratch array, adds the bias row and applies the logistic function.
  Here: the branch condition in closed form over the 25 grid points, the staging memrefs the body is called
  with at a point, and the region's invariant with the scratch array spelt as a memref.
-/
import proofs.«106086_g11184094839116_rerun558fix_278_31_alg».proof.Proof.Gen.KernelIdeal.Frame
import proofs.«106086_g11184094839116_rerun558fix_278_31_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinates: "this is the first grid point". -/
abbrev firstPt (i : grid0.Coords) : Prop :=
  (Scalar.cmpi .ne (Scalar.extui (Scalar.cmpi .eq (BitVec.ofNat 32 (i 0).val) 0#32)) 0#32) = 1#1

/-- It holds at point 0 and at no other of the 25 points. -/
theorem firstPt_iff : ∀ t : Fin cfg0.N, firstPt (grid0.coords t) ↔ t.val = 0 :=
  (by decide +kernel : ∀ t : Fin grid0.N, firstPt (grid0.coords t) ↔ t.val = 0)

/-- No window is idle at any point. -/
theorem live (w : Fin cfg0.W) (t : Fin cfg0.N) : cfg0.idle w (grid0.coords t) = false := rfl

/-- Each window's current staging memref at point `t`, and its wholeness. -/
abbrev ms0 (t : Fin cfg0.N) : Memref sig .tc .vmem S416x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S416x32 .f32 := win0_4.stage (cfg0.slots t 4)
abbrev hs4 (t : Fin cfg0.N) : (ms4 t).IsWhole := hstage0_4 ((cfg0.slots t 4).cast nbuf0_4)
/-- The scratch array: a whole scoped buffer of the kernel's own. -/
abbrev scM : Memref sig .tc .vmem S10000x32 .f32 := Memref.whole cc0_scratch0
/-- One staging buffer of the output window, and the scratch array, as views: contents are stated through them. -/
abbrev VO : View sig .tc .vmem S416x32 .f32 := (Memref.whole cc0_stg4_0 : Memref sig .tc .vmem S416x32 .f32).view
abbrev VS : View sig .tc .vmem S10000x32 .f32 := scM.view

/-- The region's class invariant with the scratch array as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KIRunA.lean ====
/-
  The kernel body at the first grid point, on any whole staging memrefs: it loads x and W, stores their product
  into the scratch array (whatever that held), then loads its block of adjacency rows, the scratch array and the
  bias row and stores the block's output. The four inputs' buffers are handed back as they were; the output's
  buffer and the scratch array come back with the stores written, as lists of the pieces stored.
-/
import proofs.«106086_g11184094839116_rerun558fix_278_31_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The first point's run: the pieces stored into the output's buffer (`L4`) and into the scratch array (`LS`),
    with the proof that the body runs to a continuation holding them written. -/
noncomputable def kernelRunA (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i)
    (x0 : Vec F S416x10000 .f32) (x1 : Vec F S10000x128 .f32) (x2 : Vec F S128x32 .f32) (x3 : Vec F S1x32 .f32) :
    Σ' (L4 : List (View.Piece (Elt F) S416x32 .f32)), { LS : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, ?_, fun E K => ?run⟩
  case run =>
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Body

end
-- ==== Proof.KIRunB.lean ====
/-
  The kernel body at a later grid point, on any whole staging memrefs: the branch is not taken, so x and W are
  not read and the scratch array is only read; the body loads its block of adjacency rows, the scratch array
  (at the contents `xs` the first point left) and the bias row, and stores the block's output.
-/
import proofs.«106086_g11184094839116_rerun558fix_278_31_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- A later point's run: the pieces stored into the output's buffer, with the proof that the body runs to a
    continuation holding them written, every other buffer as it was. -/
noncomputable def kernelRunB (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : ¬firstPt i)
    (x0 : Vec F S416x10000 .f32) (x3 : Vec F S1x32 .f32) (xs : Vec F S10000x32 .f32) :
    { L4 : List (View.Piece (Elt F) S416x32 .f32) //
      ∀ (x1 : Vec F S10000x128 .f32) (x2 : Vec F S128x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, fun x1 x2 E K => ?run⟩
  case run =>
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg4.eq_unread hf3; obtain rfl := harg6.eq_unread hfs
    sl_exec (disch := first | exact hc0)
    sl_step
    iapply Hk
    isplitl [H0]
    · iexists _; isplitr; · ipureintro; exact harg1.read_unread _
      iexact H0
    isplitl [H1]
    · iexists _; isplitr; · ipureintro; exact hf1
      iexact H1
    isplitl [H2]
    · iexists _; isplitr; · ipureintro; exact hf2
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Body

end
-- ==== Proof.KIPieces.lean ====
/-
  What the body's stores leave, read back as values. At the first grid point the scratch array ends holding the
  product payload of the loaded x and W, and the output's buffer the output payload of the loaded block of
  adjacency rows, that product, and the bias row; at a later point the output's buffer holds the output payload
  of the block, the scratch array's contents and the bias row. Each store covers its whole buffer, so a buffer
  read back is the stored payload whatever it held before.
-/
import proofs.«106086_g11184094839116_rerun558fix_278_31_alg».proof.Proof.KIRunB
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The first point -/

/-- The first point's one store into the scratch array covers it. -/
theorem scoverA (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i) (x0 : Vec F S416x10000 .f32) (x1 : Vec F S10000x128 .f32) (x2 : Vec F S128x32 .f32) (x3 : Vec F S1x32 .f32) (y : S10000x32.Idx) :
    ∃ pc ∈ (kernelRunA c i arg1 harg1 arg2 harg2 arg3 harg3 arg4 harg4 arg5 harg5 arg6 harg6 hc0 x0 x1 x2 x3).2.1, y ∈ pc.1.set :=
  View.cover_of_tiledL (kernelRunA c i arg1 harg1 arg2 harg2 arg3 harg3 arg4 harg4 arg5 harg5 arg6 harg6 hc0 x0 x1 x2 x3).2.1 S10000x32.size (by sl_kernel_rfl) y

/-- What the first point leaves in the scratch array. -/
def soutA (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i) (x0 : Vec F S416x10000 .f32) (x1 : Vec F S10000x128 .f32) (x2 : Vec F S128x32 .f32) (x3 : Vec F S1x32 .f32) : Vec F S10000x32 .f32 :=
  VS.read (Elt F) (VS.writes (Elt F) VS.junk (kernelRunA c i arg1 harg1 arg2 harg2 arg3 harg3 arg4 harg4 arg5 harg5 arg6 harg6 hc0 x0 x1 x2 x3).2.1)

/-- The first point's one store into the output's buffer covers it. -/
theorem coverA (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i) (x0 : Vec F S416x10000 .f32) (x1 : Vec F S10000x128 .f32) (x2 : Vec F S128x32 .f32) (x3 : Vec F S1x32 .f32) (y : S416x32.Idx) :
    ∃ pc ∈ (kernelRunA c i arg1 harg1 arg2 harg2 arg3 harg3 arg4 harg4 arg5 harg5 arg6 harg6 hc0 x0 x1 x2 x3).1, y ∈ pc.1.set :=
  View.cover_of_tiledL (kernelRunA c i arg1 harg1 arg2 harg2 arg3 harg3 arg4 harg4 arg5 harg5 arg6 harg6 hc0 x0 x1 x2 x3).1 S416x32.size (by sl_kernel_rfl) y

/-- What the first point leaves in the output's buffer. -/
def outA (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i) (x0 : Vec F S416x10000 .f32) (x1 : Vec F S10000x128 .f32) (x2 : Vec F S128x32 .f32) (x3 : Vec F S1x32 .f32) : Vec F S416x32 .f32 :=
  VO.read (Elt F) (VO.writes (Elt F) VO.junk (kernelRunA c i arg1 harg1 arg2 harg2 arg3 harg3 arg4 harg4 arg5 harg5 arg6 harg6 hc0 x0 x1 x2 x3).1)

/-- The scratch array after the first point: the product payload of x and W. -/
theorem soutA_eq (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i) (x0 : Vec F S416x10000 .f32) (x1 : Vec F S10000x128 .f32) (x2 : Vec F S128x32 .f32) (x3 : Vec F S1x32 .f32) :
    soutA c i arg1 harg1 arg2 harg2 arg3 harg3 arg4 harg4 arg5 harg5 arg6 harg6 hc0 x0 x1 x2 x3 = k0_pay1 x1 x2 := by
  unfold soutA
  rw [View.read_writes_eq_canon _ _ _ (scoverA c i arg1 harg1 arg2 harg2 arg3 harg3 arg4 harg4 arg5 harg5 arg6 harg6 hc0 x0 x1 x2 x3)]
  unfold kernelRunA
  dsimp only
  sl_unfold_words
  rw [View.canon_unit_zero hz]
  simp only [View.readAt_eq_ld, harg2.read_unread, harg3.read_unread, View.ld_unit_zero (S := S10000x128) hz, View.ld_unit_zero (S := S128x32) hz]

/-- The output's buffer after the first point: the output payload over that product. -/
theorem outA_eq (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : firstPt i) (x0 : Vec F S416x10000 .f32) (x1 : Vec F S10000x128 .f32) (x2 : Vec F S128x32 .f32) (x3 : Vec F S1x32 .f32) :
    outA c i arg1 harg1 arg2 harg2 arg3 harg3 arg4 harg4 arg5 harg5 arg6 harg6 hc0 x0 x1 x2 x3 = k0_pay2 x0 (k0_pay1 x1 x2) x3 := by
  unfold outA
  rw [View.read_writes_eq_canon _ _ _ (coverA c i arg1 harg1 arg2 harg2 arg3 harg3 arg4 harg4 arg5 harg5 arg6 harg6 hc0 x0 x1 x2 x3)]
  unfold kernelRunA
  dsimp only
  sl_unfold_words
  rw [View.canon_unit_zero hz, View.readCov_unit_zero (S := S10000x32) _ hz]
  simp only [View.readAt_eq_ld, harg1.read_unread, harg2.read_unread, harg3.read_unread, harg4.read_unread, View.ld_unit_zero (S := S416x10000) hz, View.ld_unit_zero (S := S10000x128) hz, View.ld_unit_zero (S := S128x32) hz, View.ld_unit_zero (S := S1x32) hz]

/-! ## A later point -/

/-- A later point's one store into the output's buffer covers it. -/
theorem coverB (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : ¬firstPt i) (x0 : Vec F S416x10000 .f32) (x3 : Vec F S1x32 .f32) (xs : Vec F S10000x32 .f32) (y : S416x32.Idx) :
    ∃ pc ∈ (kernelRunB c i arg1 harg1 arg2 harg2 arg3 harg3 arg4 harg4 arg5 harg5 arg6 harg6 hc0 x0 x3 xs).1, y ∈ pc.1.set :=
  View.cover_of_tiledL (kernelRunB c i arg1 harg1 arg2 harg2 arg3 harg3 arg4 harg4 arg5 harg5 arg6 harg6 hc0 x0 x3 xs).1 S416x32.size (by sl_kernel_rfl) y

/-- What a later point leaves in the output's buffer. -/
def outB (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : ¬firstPt i) (x0 : Vec F S416x10000 .f32) (x3 : Vec F S1x32 .f32) (xs : Vec F S10000x32 .f32) : Vec F S416x32 .f32 :=
  VO.read (Elt F) (VO.writes (Elt F) VO.junk (kernelRunB c i arg1 harg1 arg2 harg2 arg3 harg3 arg4 harg4 arg5 harg5 arg6 harg6 hc0 x0 x3 xs).1)

/-- The output's buffer after a later point: the output payload over the scratch array's contents. -/
theorem outB_eq (c : Dev nD) (i : grid0.Coords) (arg1 : Memref sig .tc .vmem S416x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S416x32 .f32) (harg5 : arg5.IsWhole) (arg6 : Memref sig .tc .vmem S10000x32 .f32) (harg6 : arg6.IsWhole) (hc0 : ¬firstPt i) (x0 : Vec F S416x10000 .f32) (x3 : Vec F S1x32 .f32) (xs : Vec F S10000x32 .f32) :
    outB c i arg1 harg1 arg2 harg2 arg3 harg3 arg4 harg4 arg5 harg5 arg6 harg6 hc0 x0 x3 xs = k0_pay2 x0 xs x3 := by
  unfold outB
  rw [View.read_writes_eq_canon _ _ _ (coverB c i arg1 harg1 arg2 harg2 arg3 harg3 arg4 harg4 arg5 harg5 arg6 harg6 hc0 x0 x3 xs)]
  unfold kernelRunB
  dsimp only
  rw [View.canon_unit_zero hz]
  simp only [View.readAt_eq_ld, harg1.read_unread, harg4.read_unread, harg6.read_unread, View.ld_unit_zero (S := S416x10000) hz, View.ld_unit_zero (S := S1x32) hz, View.ld_unit_zero (S := S10000x32) hz]

end Cert.KernelIdeal.Body

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KIPayload.lean ====
/-
  The two payloads of the kernel body read at an entry, over the extended reals.

  The first payload is the product of the [10000, 128] feature matrix with the [128, 32] weight matrix, accumulated
  into zero: its entry (k, c) is the sum over the 128 features j of x1 (k, j) * x2 (j, c). The second payload is the
  logistic function applied to the product of a [416, 10000] block of rows with the [10000, 32] support matrix, plus
  the [1, 32] bias row repeated down the 416 rows: its entry (p, c) is the logistic function of
  (∑ k, x0 (p, k) * s (k, c)) + b (0, c). In particular row p of the second payload reads the block only along row p.
-/
import proofs.«106086_g11184094839116_rerun558fix_278_31_alg».proof.Proof.Gen.KernelIdeal.Skeleton
import proofs.«106086_g11184094839116_rerun558fix_278_31_alg».proof.Proof.LibPlainDot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option synthInstance.maxSize 4096

noncomputable section

namespace Cert.KernelIdeal.Payload

open Cert.KernelIdeal Cert.KernelIdeal.Gen Idealize.ShloMosaic Idealize.ShloMosaic.ValueIdx

variable [Cert.KernelIdeal.Facts]

/-- The dimension record of the first product is the plain [10000, 128] x [128, 32] one. -/
theorem dot1_eq : dot_S10000x128_S128x32_S10000x32_1_0_0_1_n_n = DotDims.plain 10000 128 32 := rfl

/-- The dimension record of the second product is the plain [416, 10000] x [10000, 32] one. -/
theorem dot2_eq : dot_S416x10000_S10000x32_S416x32_1_0_0_1_n_n = DotDims.plain 416 10000 32 := rfl

/-- entry (k, c) of the first payload: the sum over the 128 features -/
theorem pay1_apply (x1 : Vec Ideal S10000x128 .f32) (x2 : Vec Ideal S128x32 .f32) (k : Fin 10000) (c : Fin 32) :
    k0_pay1 (F := Ideal) x1 x2 (ix2 k c) = ∑ j : Fin 128, x1 (ix2 k j) * x2 (ix2 j c) := by
  unfold k0_pay1
  refine (congrFun (shapeCast_self _ _) (ix2 k c)).trans ?_
  exact Cert.PlainDot.matmul_zero_apply _ dot1_eq none x1 x2 k c

/-- entry (p, c) of the second payload: the logistic function of row p of the block against column c of s, plus the bias at c -/
theorem pay2_apply (x0 : Vec Ideal S416x10000 .f32) (s : Vec Ideal S10000x32 .f32) (b : Vec Ideal S1x32 .f32) (p : Fin 416) (c : Fin 32) :
    k0_pay2 (F := Ideal) x0 s b (ix2 p c) = Ideal.logistic ((∑ k : Fin 10000, x0 (ix2 p k) * s (ix2 k c)) + b (ix2 (0 : Fin 1) c)) := by
  unfold k0_pay2
  show Ideal.logistic (_ + _) = _
  refine congrArg Ideal.logistic (congrArg₂ (· + ·) ?_ ?_)
  · exact Cert.PlainDot.matmul_zero_apply _ dot2_eq none x0 s p c
  · refine (broadcastTo_1b_ab_apply _ _ p c).trans ?_
    exact congrFun (shapeCast_self b _) (ix2 (0 : Fin 1) c)

/-- so the second payload at row p depends on the block only through its row p -/
theorem pay2_row_congr (x0 x0' : Vec Ideal S416x10000 .f32) (s : Vec Ideal S10000x32 .f32) (b : Vec Ideal S1x32 .f32) (p : Fin 416) (c : Fin 32)
    (h : ∀ k : Fin 10000, x0 (ix2 p k) = x0' (ix2 p k)) : k0_pay2 (F := Ideal) x0 s b (ix2 p c) = k0_pay2 (F := Ideal) x0' s b (ix2 p c) := by
  rw [pay2_apply, pay2_apply]
  refine congrArg Ideal.logistic (congrArg (· + b (ix2 (0 : Fin 1) c)) ?_)
  exact Finset.sum_congr rfl fun k _ => by rw [h k]

end Cert.KernelIdeal.Payload

end
-- ==== Proof.KIData.lean ====
/-
  The proof data of the idealized kernel's one pipeline, over the extended reals. After the body at grid point t
  the staging buffers hold: the block of adjacency rows of that point (rows past the array's end filled with
  zero, which nothing reads); x, W and the bias row, whole; and the output block — the logistic function of the
  block times the support matrix x · W plus the bias row. The scratch array holds the support matrix from the
  first point on, which is the region's invariant. An output row is computed from the same row of the block, so
  the rows inside the array do not depend on what fills the rows past its end.
-/
import proofs.«106086_g11184094839116_rerun558fix_278_31_alg».proof.Proof.KIPieces
import proofs.«106086_g11184094839116_rerun558fix_278_31_alg».proof.Proof.KIPayload

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The first grid point. -/
abbrev t0 : Fin cfg0.N := ⟨0, Nat.lt_of_lt_of_eq (by decide : 0 < 25) N_0.symm⟩

/-- The filler of a block's rows past the array's end. -/
def dz : S416x10000.Idx → Elt Ideal .f32 := fun _ => (0 : EReal)

/-- Point t's block of adjacency rows: the rows inside the array, the others zero. -/
def adjBlk (c : Dev nD) (t : Fin cfg0.N) : Vec Ideal S416x10000 .f32 :=
  win0_0.fill (grid0.coords t) dz (iblk m c 0 t)

/-- The support matrix x · W, as the first point computes it from the whole x and W. -/
def supp (c : Dev nD) : Vec Ideal S10000x32 .f32 := k0_pay1 (iblk m c 1 t0) (iblk m c 2 t0)

/-- Point t's output block. -/
def outBlk (c : Dev nD) (t : Fin cfg0.N) : Vec Ideal S416x32 .f32 :=
  k0_pay2 (adjBlk m c t) (supp m c) (iblk m c 3 t)

/-- The region's invariant before position n: before the first point the scratch array holds anything; afterwards
    the support matrix. -/
def PhiS (c : Dev nD) : ℕ → sProp 𝕄
  | 0 => Pipeline.ΦA spec0 c
  | _ + 1 => iprop(iprop(owns (c : Thread nD τ) scM fullShare (supp m c)) ∗ (∃ r, prngReg c r))

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = adjBlk m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlk m c t := by dsimp only [dats]

/-- The block of adjacency rows is fetched at every point: its buffer holds the rows inside the array, and
    anything past them. -/
theorem before0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq m c 0]; try rfl)

theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output's buffer is written back at every point: the body finds anything in it. -/
theorem before4 (c : Dev nD) (t : Fin cfg0.N) (d) : (dats m 0 c).before 4 t d = d :=
  (dats m 0 c).before_out_reset 4 rfl t (by
    by_cases h0 : t.val = 0
    · exact .inl h0
    · exact .inr ⟨h0, flush0_4 _⟩) d

/-! ## Rows inside the array do not see the rows past its end -/

/-- The two clipped windows cut the same rows at every point, and neither cuts a column. -/
theorem xsizes : ∀ t : Fin cfg0.N, win0_0.xsize (grid0.coords t) 0 = win0_4.xsize (grid0.coords t) 0
    ∧ win0_0.xsize (grid0.coords t) 1 = 10000 :=
  (by decide +kernel : ∀ t : Fin grid0.N, win0_0.xsize (grid0.coords t) 0 = win0_4.xsize (grid0.coords t) 0
    ∧ win0_0.xsize (grid0.coords t) 1 = 10000)

/-- On a row inside the array the block of adjacency rows is what was fetched, whatever fills the rest. -/
theorem fill_row (t : Fin cfg0.N) (d d' : S416x10000.Idx → Elt Ideal .f32)
    (g : (win0_0.xblock (grid0.coords t)).Idx → Elt Ideal .f32) (p : Fin 416)
    (hp : p.val < win0_4.xsize (grid0.coords t) 0) (k : Fin 10000) :
    win0_0.fill (grid0.coords t) d g (ix2 p k) = win0_0.fill (grid0.coords t) d' g (ix2 p k) := by
  have hm : win0_0.moved (grid0.coords t) (ix2 p k) = true := (win0_0.moved_iff _ _).mpr fun a => by
    match a with
    | ⟨0, _⟩ => show p.val < win0_0.xsize (grid0.coords t) 0; rw [(xsizes t).1]; exact hp
    | ⟨1, _⟩ => show k.val < win0_0.xsize (grid0.coords t) 1; rw [(xsizes t).2]; exact k.isLt
  unfold Window.fill; rw [dif_pos hm, dif_pos hm]

/-- So the output block's rows inside the array do not depend on the filler. -/
theorem cut_out_congr (t : Fin cfg0.N) (d d' : S416x10000.Idx → Elt Ideal .f32)
    (g : (win0_0.xblock (grid0.coords t)).Idx → Elt Ideal .f32) (s : Vec Ideal S10000x32 .f32) (b : Vec Ideal S1x32 .f32) :
    win0_4.cut (grid0.coords t) (k0_pay2 (win0_0.fill (grid0.coords t) d g) s b)
      = win0_4.cut (grid0.coords t) (k0_pay2 (win0_0.fill (grid0.coords t) d' g) s b) := by
  funext j
  have h416 : (j 0).val < 416 := Nat.lt_of_lt_of_le (j 0).isLt (win0_4.xsize_le (grid0.coords t) 0)
  have h32 : (j 1).val < 32 := Nat.lt_of_lt_of_le (j 1).isLt (win0_4.xsize_le (grid0.coords t) 1)
  have hj : win0_4.xinj (grid0.coords t) j = ix2 (⟨(j 0).val, h416⟩ : Fin 416) (⟨(j 1).val, h32⟩ : Fin 32) :=
    funext fun a => by match a with | ⟨0, _⟩ => rfl | ⟨1, _⟩ => rfl
  show k0_pay2 _ s b (win0_4.xinj (grid0.coords t) j) = k0_pay2 _ s b (win0_4.xinj (grid0.coords t) j)
  rw [hj]
  exact Payload.pay2_row_congr _ _ s b _ _ (fun k => fill_row t d d' g _ (j 0).isLt k)

/-! ## The invariant, point by point -/

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) :
    (dats m 0 c).Φ t.succ = iprop(iprop(owns (c : Thread nD τ) scM fullShare (supp m c)) ∗ (∃ r, prngReg c r)) := rfl

theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the two clipped windows' buffers stated on the rows inside the array only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare (win0_4.fill (grid0.coords t) d (win0_4.cut (grid0.coords t) ((dats m 0 c).after 4 t)))))

set_option maxHeartbeats 2000000 in
/-- The body at any point. At the first point it fills the scratch array with the support matrix and the
    invariant takes it at that; later the invariant lends it and takes it back unchanged. Either way the output's
    buffer ends at the output payload of what the block's buffer held, which on the rows inside the array is the
    output block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [Phi_succ m c t, Phi_castSucc m c t]
  rw [after0, after1, after2, after3, after4]
  simp only [before0 m c t, before1 m c t, before2 m c t, before3 m c t, before4 m c t]
  rw [show win0_0.cut (grid0.coords t) (adjBlk m c t) = iblk m c 0 t from win0_0.cut_fill _ _ _]
  by_cases hz : t.val = 0
  · obtain rfl : t = t0 := Fin.ext hz
    rw [show PhiS m c (t0 : Fin cfg0.N).val = Pipeline.ΦA spec0 c from rfl, PhiA_eq]
    iintro ⟨⟨HS, Hg⟩, Ho, ⟨%d0, H0⟩, ⟨%d1, H1⟩, ⟨%d2, H2⟩, ⟨%d3, H3⟩, ⟨%d4, H4⟩⟩
    iapply ((kernelRunA c (grid0.coords t0) _ _ _ _ _ _ _ _ _ _ _ _ ((firstPt_iff t0).mpr rfl)
      (win0_0.fill (grid0.coords t0) d0 (iblk m c 0 t0)) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro
        exact (View.read_writes_of_cover _ _ _ _ _ (scoverA c _ _ _ _ _ _ _ _ _ _ _ _ _ _ _ _ _ _)).trans (soutA_eq c _ _ _ _ _ _ _ _ _ _ _ _ _ _ _ _ _ _)
      iexact Hg
    isplitl [Ho]; · iexact Ho
    isplitl [H0]; · iexists d0; iexact H0
    isplitl [H1]; · iexact H1
    isplitl [H2]; · iexact H2
    isplitl [H3]; · iexact H3
    iexists (k0_pay2 (win0_0.fill (grid0.coords t0) d0 (iblk m c 0 t0)) (supp m c) (iblk m c 3 t0))
    rw [show outBlk m c t0 = k0_pay2 (win0_0.fill (grid0.coords t0) dz (iblk m c 0 t0)) (supp m c) (iblk m c 3 t0) from rfl,
      win0_4.fill_congr_cut _ (cut_out_congr t0 d0 dz (iblk m c 0 t0) (supp m c) (iblk m c 3 t0))]
    unfold owns; iexists _; isplitr
    swap; · iexact H4
    ipureintro
    exact (View.read_writes_of_cover _ _ _ _ _ (coverA c _ _ _ _ _ _ _ _ _ _ _ _ _ _ _ _ _ _)).trans (outA_eq c _ _ _ _ _ _ _ _ _ _ _ _ _ _ _ _ _ _)
  · rw [PhiS_pos m c _ hz]
    iintro ⟨⟨HS, Hg⟩, Ho, ⟨%d0, H0⟩, ⟨%d1, H1⟩, ⟨%d2, H2⟩, ⟨%d3, H3⟩, ⟨%d4, H4⟩⟩
    iapply ((kernelRunB c (grid0.coords t) _ _ _ _ _ _ _ _ _ _ _ _ (fun h => hz ((firstPt_iff t).mp h))
      (win0_0.fill (grid0.coords t) d0 (iblk m c 0 t)) (iblk m c 3 t) (supp m c)).2 (iblk m c 1 t) (iblk m c 2 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    iexists (k0_pay2 (win0_0.fill (grid0.coords t) d0 (iblk m c 0 t)) (supp m c) (iblk m c 3 t))
    rw [show outBlk m c t = k0_pay2 (win0_0.fill (grid0.coords t) dz (iblk m c 0 t)) (supp m c) (iblk m c 3 t) from rfl,
      win0_4.fill_congr_cut _ (cut_out_congr t d0 dz (iblk m c 0 t) (supp m c) (iblk m c 3 t))]
    unfold owns; iexists _; isplitr
    swap; · iexact H4
    ipureintro
    exact (View.read_writes_of_cover _ _ _ _ _ (coverB c _ _ _ _ _ _ _ _ _ _ _ _ _ _ _ _ _)).trans (outB_eq c _ _ _ _ _ _ _ _ _ _ _ _ _ _ _ _ _)

/-- The body obligation of the pipeline, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class invariant back: what the scratch array holds is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 25 := N_0; omega), PhiA_eq]
  iintro ⟨HS, Hg⟩
  isplitl [HS]
  · iexists _; iexact HS
  iexact Hg

/-! ## The run -/

set_option backward.isDefEq.respectTransparency.types false in
/-- Every weakly fair execution of the idealized kernel's program terminates, and every final state has every array
    of the pipeline at the contents the proof data give it after every write-back, and every other unscoped buffer as the region
    found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Body

end
-- ==== Proof.Spec.lean ====
/-
  The graph-convolution layer as one function of its four argument arrays, entry by entry over the extended
  reals: with  support = x · W  (a [10000, 128] array times a [128, 32] array), the layer's entry (r, c) is the
  logistic function of  Σ_k adj(r, k) · support(k, c) + bias(c).  Both programs compute exactly this expression,
  in this association, so no law of the extended reals beyond reading each operation at an entry is needed.
-/
import Idealize.ShloMosaic.Lib.ValueIdx
import Idealize.ShloMosaic.PureOps.Ideal

noncomputable section

namespace Cert.Gcn

open Idealize.ShloMosaic Idealize.ShloMosaic.ValueIdx

/-- Entry (k, c) of the product x · W: the sum over the 128 features. -/
def support (x : (⟨2, ![10000, 128]⟩ : Shape).Idx → EReal) (w : (⟨2, ![128, 32]⟩ : Shape).Idx → EReal)
    (k : Fin 10000) (c : Fin 32) : EReal :=
  ∑ j : Fin 128, x (ix2 k j) * w (ix2 j c)

/-- The pre-activation at (r, c) given ANY [10000, 32] array `s` in the place of the support: row r of the
    adjacency matrix against column c of `s`, plus the bias at c. -/
def preAct (adj : (⟨2, ![10000, 10000]⟩ : Shape).Idx → EReal) (s : Fin 10000 → Fin 32 → EReal)
    (b : (⟨1, ![32]⟩ : Shape).Idx → EReal) (r : Fin 10000) (c : Fin 32) : EReal :=
  (∑ k : Fin 10000, adj (ix2 r k) * s k c) + b (ix1 c)

/-- Entry (r, c) of the layer's output. -/
def layerAt (x : (⟨2, ![10000, 128]⟩ : Shape).Idx → EReal) (adj : (⟨2, ![10000, 10000]⟩ : Shape).Idx → EReal)
    (w : (⟨2, ![128, 32]⟩ : Shape).Idx → EReal) (b : (⟨1, ![32]⟩ : Shape).Idx → EReal) (r : Fin 10000) (c : Fin 32) : EReal :=
  Ideal.logistic (preAct adj (support x w) b r c)

/-- The layer's output array. -/
def layer (x : (⟨2, ![10000, 128]⟩ : Shape).Idx → EReal) (adj : (⟨2, ![10000, 10000]⟩ : Shape).Idx → EReal)
    (w : (⟨2, ![128, 32]⟩ : Shape).Idx → EReal) (b : (⟨1, ![32]⟩ : Shape).Idx → EReal) :
    (⟨2, ![10000, 32]⟩ : Shape).Idx → EReal :=
  fun i => layerAt x adj w b (i 0) (i 1)

theorem layer_ix2 (x : (⟨2, ![10000, 128]⟩ : Shape).Idx → EReal) (adj : (⟨2, ![10000, 10000]⟩ : Shape).Idx → EReal)
    (w : (⟨2, ![128, 32]⟩ : Shape).Idx → EReal) (b : (⟨1, ![32]⟩ : Shape).Idx → EReal) (r : Fin 10000) (c : Fin 32) :
    layer x adj w b (ix2 r c) = layerAt x adj w b r c := rfl

end Cert.Gcn

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.KIValue.lean ====
/-
  From blocks to the array. At grid point t the pipeline writes back the rows inside the array of the output
  block, onto rows  416·b … of the result, b the block index of the point. Read entry by entry, that block is
  the graph-convolution layer of the four argument arrays on those rows: the block of adjacency rows is the
  adjacency matrix on them, the scratch array is the support matrix of x and W, and the bias row is the bias
  array. The 25 blocks (24 of 416 rows and one of 16) cover the 10000 rows, so the result array ends holding the
  layer, whatever it held before.
-/
import proofs.«106086_g11184094839116_rerun558fix_278_31_alg».proof.Proof.KIData
import proofs.«106086_g11184094839116_rerun558fix_278_31_alg».proof.Proof.Spec
import proofs.«106086_g11184094839116_rerun558fix_278_31_alg».proof.Proof.LibRowVector
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The layer of the launched argument arrays, as contents of the result array. -/
def G (c : Dev nD) : Buf (Elt Ideal) ((c : Thread nD τ).loc main_v1) :=
  Cert.Gcn.layer (m ((c : Thread nD τ).loc main_arg0)) (m ((c : Thread nD τ).loc main_arg1))
    (m ((c : Thread nD τ).loc main_arg2)) (m ((c : Thread nD τ).loc main_arg3))

/-- The printed index maps and cuts, decided over the 25 grid points: the adjacency window moves with the output
    window down the rows and neither moves across; x, W and the bias row sit at block (0, 0); a block's rows inside
    the array are 416, or 16 for the last block. -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.xsize (grid0.coords t) (1 : Fin 2) = 32
    ∧ ((win0_4.index t (0 : Fin 2) = 24 ∧ win0_4.xsize (grid0.coords t) (0 : Fin 2) = 16)
        ∨ (win0_4.index t (0 : Fin 2) < 24 ∧ win0_4.xsize (grid0.coords t) (0 : Fin 2) = 416)) :=
  (by decide +kernel : ∀ t : Fin grid0.N, _)

/-- Every block index 0 … 24 is some point's. -/
theorem idx_onto : ∀ q : Fin 25, ∃ t : Fin cfg0.N, win0_4.index t (0 : Fin 2) = q.val :=
  (by decide +kernel : ∀ q : Fin 25, ∃ t : Fin grid0.N, win0_4.index t (0 : Fin 2) = q.val)

/-- The bias row as the region finds it: the bias array reshaped to one row. -/
theorem V_bias (c : Dev nD) :
    (V m c main_v0 : S1x32.Idx → Elt Ideal .f32) = shapeCast S1x32 (m ((c : Thread nD τ).loc main_arg3)) shapeCasts_S32_S1x32 := by
  dsimp only [Gen.V, Gen.hostOps0]; after_results; rfl

/-- On a row inside the array, the block of adjacency rows is the adjacency matrix on the block's rows. -/
theorem adj_at (c : Dev nD) (t : Fin cfg0.N) (p : Fin 416) (hp : p.val < win0_4.xsize (grid0.coords t) 0) (k : Fin 10000)
    (hr : win0_4.index t (0 : Fin 2) * 416 + p.val < 10000) :
    adjBlk m c t (ix2 p k) = m ((c : Thread nD τ).loc main_arg1) (ix2 ⟨win0_4.index t (0 : Fin 2) * 416 + p.val, hr⟩ k) := by
  have hm : win0_0.moved (grid0.coords t) (ix2 p k) = true := (win0_0.moved_iff _ _).mpr fun a => by
    match a with
    | ⟨0, _⟩ => show p.val < win0_0.xsize (grid0.coords t) 0; rw [(xsizes t).1]; exact hp
    | ⟨1, _⟩ => show k.val < win0_0.xsize (grid0.coords t) 1; rw [(xsizes t).2]; exact k.isLt
  unfold adjBlk Window.fill
  rw [dif_pos hm]
  show V m c main_arg1 (((cfg0.win 0).blk t).view.emb _) = _
  rw [V_main_arg1]
  refine congrArg _ (funext fun a => Fin.ext ?_)
  obtain ⟨e0, e1, -⟩ := idx_facts t
  match a with
  | ⟨0, _⟩ => show win0_0.index t (0 : Fin 2) * 416 + 1 * p.val = win0_4.index t (0 : Fin 2) * 416 + p.val; omega
  | ⟨1, _⟩ => show win0_0.index t (1 : Fin 2) * 10000 + 1 * k.val = k.val; omega

/-- The scratch array's entry (k, q): the support matrix of the launched x and W. -/
theorem supp_at (c : Dev nD) (k : Fin 10000) (q : Fin 32) :
    supp m c (ix2 k q) = Cert.Gcn.support (m ((c : Thread nD τ).loc main_arg0)) (m ((c : Thread nD τ).loc main_arg2)) k q := by
  unfold supp
  rw [Payload.pay1_apply]
  unfold Cert.Gcn.support
  obtain ⟨-, -, -, e3, e4, e5, e6, -⟩ := idx_facts t0
  refine Finset.sum_congr rfl fun j _ => ?_
  have h1 : iblk m c 1 t0 (ix2 k j) = m ((c : Thread nD τ).loc main_arg0) (ix2 k j) := by
    show V m c main_arg0 (((cfg0.win 1).blk t0).view.emb (ix2 k j)) = _
    rw [V_main_arg0]
    refine congrArg _ (funext fun a => Fin.ext ?_)
    match a with
    | ⟨0, _⟩ => show win0_1.index t0 (0 : Fin 2) * 10000 + 1 * k.val = k.val; omega
    | ⟨1, _⟩ => show win0_1.index t0 (1 : Fin 2) * 128 + 1 * j.val = j.val; omega
  have h2 : iblk m c 2 t0 (ix2 j q) = m ((c : Thread nD τ).loc main_arg2) (ix2 j q) := by
    show V m c main_arg2 (((cfg0.win 2).blk t0).view.emb (ix2 j q)) = _
    rw [V_main_arg2]
    refine congrArg _ (funext fun a => Fin.ext ?_)
    match a with
    | ⟨0, _⟩ => show win0_2.index t0 (0 : Fin 2) * 128 + 1 * j.val = j.val; omega
    | ⟨1, _⟩ => show win0_2.index t0 (1 : Fin 2) * 32 + 1 * q.val = q.val; omega
  rw [h1, h2]

/-- The bias row's entry (0, q): the bias array at q. -/
theorem bias_at (c : Dev nD) (t : Fin cfg0.N) (q : Fin 32) :
    iblk m c 3 t (ix2 (0 : Fin 1) q) = m ((c : Thread nD τ).loc main_arg3) (ix1 q) := by
  obtain ⟨-, -, -, -, -, -, -, e7, e8, -⟩ := idx_facts t
  have he : ((cfg0.win 3).blk t).view.emb (ix2 (0 : Fin 1) q) = ix2 (0 : Fin 1) q := funext fun a => Fin.ext (by
    match a with
    | ⟨0, _⟩ => show win0_3.index t (0 : Fin 2) * 1 + 1 * 0 = 0; omega
    | ⟨1, _⟩ => show win0_3.index t (1 : Fin 2) * 32 + 1 * q.val = q.val; omega)
  show V m c main_v0 (((cfg0.win 3).blk t).view.emb (ix2 (0 : Fin 1) q)) = _
  rw [he, V_bias, Cert.RowVector.reshape_apply]
  refine congrArg _ (funext fun a => ?_)
  match a with
  | ⟨0, _⟩ => rfl

/-- WHAT POINT t WRITES BACK is block t of the layer. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after4]
  funext j
  obtain ⟨-, -, e2, -, -, -, -, -, -, x1, hx⟩ := idx_facts t
  have hj0 : (j 0).val < win0_4.xsize (grid0.coords t) 0 := (j 0).isLt
  have hj1 : (j 1).val < win0_4.xsize (grid0.coords t) 1 := (j 1).isLt
  have h416 : (j 0).val < 416 := Nat.lt_of_lt_of_le (j 0).isLt (win0_4.xsize_le (grid0.coords t) 0)
  have h32 : (j 1).val < 32 := Nat.lt_of_lt_of_le (j 1).isLt (win0_4.xsize_le (grid0.coords t) 1)
  have hr : win0_4.index t (0 : Fin 2) * 416 + (j 0).val < 10000 := by omega
  have hj : win0_4.xinj (grid0.coords t) j = ix2 (⟨(j 0).val, h416⟩ : Fin 416) (⟨(j 1).val, h32⟩ : Fin 32) :=
    funext fun a => by match a with | ⟨0, _⟩ => rfl | ⟨1, _⟩ => rfl
  have hemb : ((cfg0.win 4).blk t).view.emb j
      = ix2 (⟨win0_4.index t (0 : Fin 2) * 416 + (j 0).val, hr⟩ : Fin 10000) (⟨(j 1).val, h32⟩ : Fin 32) :=
    funext fun a => Fin.ext (by
      match a with
      | ⟨0, _⟩ => show win0_4.index t (0 : Fin 2) * 416 + 1 * (j 0).val = win0_4.index t (0 : Fin 2) * 416 + (j 0).val; omega
      | ⟨1, _⟩ => show win0_4.index t (1 : Fin 2) * 32 + 1 * (j 1).val = (j 1).val; omega)
  show outBlk m c t (win0_4.xinj (grid0.coords t) j) = G m c (((cfg0.win 4).blk t).view.emb j)
  rw [hj, hemb]
  unfold outBlk G
  rw [Payload.pay2_apply, Cert.Gcn.layer_ix2]
  unfold Cert.Gcn.layerAt Cert.Gcn.preAct
  refine congrArg Ideal.logistic (congrArg₂ (· + ·) (Finset.sum_congr rfl fun k _ => ?_) (bias_at m c t _))
  rw [adj_at m c t _ hj0 k hr, supp_at]

/-- An index of the result is in point t's block iff each coordinate is in the block's range inside the array. -/
theorem mem_blk (t : Fin cfg0.N) (i : S10000x32.Idx) :
    i ∈ ((cfg0.win 4).blk t).view.set ↔ ∀ a : Fin 2, win0_4.index t a * S416x32.size a ≤ (i a).val
      ∧ (i a).val < win0_4.index t a * S416x32.size a + win0_4.xsize (grid0.coords t) a := by
  show i ∈ ((View.whole main_v1).slice (win0_4.rect t)).set ↔ _
  rw [View.set_slice_whole, Rect.mem_set_unit]
  exact Iff.rfl

/-- Every row of the result is in the block of the point whose block index is the row divided by 416. -/
theorem cover (i : S10000x32.Idx) : ∃ t : Fin cfg0.N, (cfg0.win 4).flush t = true ∧ i ∈ ((cfg0.win 4).blk t).view.set := by
  have hi0 : (i 0).val < 10000 := (i 0).isLt
  have hi1 : (i 1).val < 32 := (i 1).isLt
  obtain ⟨t, ht⟩ := idx_onto ⟨(i 0).val / 416, by omega⟩
  have ht' : win0_4.index t (0 : Fin 2) = (i 0).val / 416 := ht
  obtain ⟨-, -, e2, -, -, -, -, -, -, x1, hx⟩ := idx_facts t
  refine ⟨t, flush0_4 t, ?_⟩
  rw [mem_blk]
  intro a
  match a with
  | ⟨0, _⟩ =>
    show win0_4.index t (0 : Fin 2) * 416 ≤ (i 0).val ∧ (i 0).val < win0_4.index t (0 : Fin 2) * 416 + win0_4.xsize (grid0.coords t) (0 : Fin 2)
    omega
  | ⟨1, _⟩ =>
    show win0_4.index t (1 : Fin 2) * 32 ≤ (i 1).val ∧ (i 1).val < win0_4.index t (1 : Fin 2) * 32 + win0_4.xsize (grid0.coords t) (1 : Fin 2)
    omega

/-- THE RESULT ARRAY after the run: the layer of the launched argument arrays. -/
theorem final (c : Dev nD) : (dats m 0 c).arrAt 4 cfg0.N = G m c :=
  (dats m 0 c).arrAt_eq_of_cover 4 (G m c) (fun t _ => flushed_eq m c t) cover

/-- The run, read: the result array at the layer, the four argument arrays unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Body

end
-- ==== Proof.RefValue.lean ====
/-
  The reference program's result, read entry by entry, is the graph-convolution layer of its four arguments.
  The program forms  x · W,  then  adj · (x · W),  adds the bias (a [32] array seen as one row and repeated down
  the 10000 rows), negates, exponentiates, adds the constant one, and divides one by the result. At an entry
  (r, c) each product is the sum over its contracted axis, the bias is read at c, the constant is one at every
  entry, and  1 / (1 + exp (-p))  is by definition the logistic function of p.
-/
import proofs.«106086_g11184094839116_rerun558fix_278_31_alg».proof.Proof.Gen.ReferenceIdeal.Read
import proofs.«106086_g11184094839116_rerun558fix_278_31_alg».proof.Proof.Spec
import Idealize.ShloMosaic.Lib.ValueIdx
import Idealize.ShloMosaic.PureOps.Ideal
import Idealize.ShloMosaic.PureOps.Ideal.Laws

noncomputable section

namespace Cert.ReferenceIdeal.RefValue
open Cert.ReferenceIdeal Idealize.ShloMosaic Idealize.ShloMosaic.ValueIdx

/-- The single-precision pattern 0x3F800000 denotes the number one. -/
theorem one_pat : Ideal.ofBits .f32 0x3F800000#32 = (1 : EReal) := by
  simp [Ideal.ofBits, Ideal.ieee, -EReal.coe_mul]; norm_num

/-! ## The index functions of the two products and of the bias, at an entry (r, c) -/

theorem lidx0_eq (r : Fin 10000) (c : Fin 32) (k : Fin 128) : Read.lidx_main_v0 (ix2 r c) k = ix2 r k := by
  funext a; match a with | ⟨0, _⟩ => rfl | ⟨1, _⟩ => rfl

theorem ridx0_eq (r : Fin 10000) (c : Fin 32) (k : Fin 128) : Read.ridx_main_v0 (ix2 r c) k = ix2 k c := by
  funext a; match a with | ⟨0, _⟩ => rfl | ⟨1, _⟩ => rfl

theorem lidx1_eq (r : Fin 10000) (c : Fin 32) (k : Fin 10000) : Read.lidx_main_v1 (ix2 r c) k = ix2 r k := by
  funext a; match a with | ⟨0, _⟩ => rfl | ⟨1, _⟩ => rfl

theorem ridx1_eq (r : Fin 10000) (c : Fin 32) (k : Fin 10000) : Read.ridx_main_v1 (ix2 r c) k = ix2 k c := by
  funext a; match a with | ⟨0, _⟩ => rfl | ⟨1, _⟩ => rfl

theorem bias_idx_eq (r : Fin 10000) (c : Fin 32) : Read.idx_main_v2 (Read.idx_main_v3 (ix2 r c)) = ix1 c := by
  funext a; match a with | ⟨0, _⟩ => rfl

/-! ## The stages at an entry (r, c) -/

/-- x · W at (k, c) is the support. -/
theorem v0_at (x0 : (⟨S10000x128, .f32⟩ : BufTy).Contents (Elt Ideal)) (x2 : (⟨S128x32, .f32⟩ : BufTy).Contents (Elt Ideal))
    (k : Fin 10000) (c : Fin 32) :
    Read.val_main_v0 (F := Ideal) x0 x2 (ix2 k c) = Cert.Gcn.support x0 x2 k c := by
  rw [Read.val_main_v0_apply]
  unfold Cert.Gcn.support
  refine Finset.sum_congr rfl fun j _ => ?_
  rw [lidx0_eq, ridx0_eq]

/-- adj · (x · W) at (r, c): row r of adj against column c of the support. -/
theorem v1_at (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (r : Fin 10000) (c : Fin 32) :
    Read.val_main_v1 (F := Ideal) x0 x1 x2 (ix2 r c) = ∑ k : Fin 10000, x1 (ix2 r k) * Cert.Gcn.support x0 x2 k c := by
  rw [Read.val_main_v1_apply]
  refine Finset.sum_congr rfl fun k _ => ?_
  rw [lidx1_eq, ridx1_eq, v0_at]

/-- The bias repeated down the rows, at (r, c), is the bias at c. -/
theorem v3_at (x3 : (⟨S32, .f32⟩ : BufTy).Contents (Elt Ideal)) (r : Fin 10000) (c : Fin 32) :
    Read.val_main_v3 (F := Ideal) x3 (ix2 r c) = x3 (ix1 c) := by
  rw [Read.val_main_v3_apply, Read.val_main_v2_apply, bias_idx_eq]

/-- The sum of the two, at (r, c), is the pre-activation. -/
theorem v4_at (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal)) (r : Fin 10000) (c : Fin 32) :
    Read.val_main_v4 (F := Ideal) x0 x1 x2 x3 (ix2 r c) = Cert.Gcn.preAct x1 (Cert.Gcn.support x0 x2) x3 r c := by
  rw [Read.val_main_v4_apply, v1_at, v3_at]
  rfl

/-- The constant array added to the exponential is one at every entry. -/
theorem v7_at (i : S10000x32.Idx) : Read.val_main_v7 (F := Ideal) i = (1 : EReal) := by
  rw [Read.val_main_v7_apply, Read.val_main_cst_apply]
  exact one_pat

/-- The constant array that is divided is one at every entry. -/
theorem v9_at (i : S10000x32.Idx) : Read.val_main_v9 (F := Ideal) i = (1 : EReal) := by
  rw [Read.val_main_v9_apply, Read.val_main_cst_0_apply]
  exact one_pat

/-- The result at (r, c) is the logistic function of the pre-activation. -/
theorem v10_at (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal)) (r : Fin 10000) (c : Fin 32) :
    Read.val_main_v10 (F := Ideal) x0 x1 x2 x3 (ix2 r c) = Cert.Gcn.layerAt x0 x1 x2 x3 r c := by
  rw [Read.val_main_v10_apply, Read.val_main_v8_apply, Read.val_main_v6_apply, Read.val_main_v5_apply, v9_at, v7_at, v4_at]
  rfl

/-- The reference program's result is the layer. -/
theorem ref_eq_layer (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal)) :
    Cert.ReferenceIdeal.Read.val_main_v10 (F := Ideal) x0 x1 x2 x3 = Cert.Gcn.layer x0 x1 x2 x3 := by
  funext i
  obtain ⟨r, c, rfl⟩ : ∃ (r : Fin 10000) (c : Fin 32), i = ix2 r c := ⟨i 0, i 1, eq_ix2 i⟩
  rw [v10_at, Cert.Gcn.layer_ix2]

end Cert.ReferenceIdeal.RefValue

end
-- ==== Proof.lean ====
/-
  A graph-convolution layer, out = logistic (adj · (x · W) + bias), computed by a pipelined kernel over 25 blocks
  of 416 rows of the adjacency matrix (the last block has 16 rows inside the array) against its plain reference.

  The kernel keeps the support matrix x · W in a scratch array: the first grid point computes it, every point
  multiplies its block of adjacency rows against it, adds the bias row and applies the logistic function. Over
  the extended reals each matrix product at an entry is the plain sum over the contracted axis, and the
  reference's 1 / (1 + exp (-p)) is the logistic function of p by definition, so both programs end with the same
  function of the four argument arrays, entry by entry; no algebraic law beyond reading each operation at an
  entry is used, and the precondition is never opened.

  The frames: every execution of each program terminates without a fault and leaves the argument arrays as they
  were. For the word-level kernel nothing of what is computed matters, so the output window's contents are not
  named; for the idealized kernel the frame is read off the run that also names the result; for the reference it
  is its run with the result dropped. The idealization rewrote no operation, so there is nothing to preserve.
-/
import proofs.«106086_g11184094839116_rerun558fix_278_31_alg».proof.Defs
import proofs.«106086_g11184094839116_rerun558fix_278_31_alg».proof.Proof.Gen.Kernel
import proofs.«106086_g11184094839116_rerun558fix_278_31_alg».proof.Proof.Gen.KernelIdeal
import proofs.«106086_g11184094839116_rerun558fix_278_31_alg».proof.Proof.Gen.ReferenceIdeal
import proofs.«106086_g11184094839116_rerun558fix_278_31_alg».proof.Proof.Gen.Pre_finite_inputs
import proofs.«106086_g11184094839116_rerun558fix_278_31_alg».proof.Proof.Gen.ReferenceIdeal.Read
import proofs.«106086_g11184094839116_rerun558fix_278_31_alg».proof.Proof.KFrame
import proofs.«106086_g11184094839116_rerun558fix_278_31_alg».proof.Proof.KIValue
import proofs.«106086_g11184094839116_rerun558fix_278_31_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- The idealized kernel runs and leaves its arguments unchanged: its run with the result dropped. -/
theorem frame_ki : Cert.frame_KernelIdeal := fun m ρ _ =>
  (θ_run Cert.KernelIdeal.defs _ _).mono (fun _ h c => (h c).2) (Cert.KernelIdeal.Body.run m ρ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the layer of the argument arrays. -/
theorem algebraic : Cert.algebraic_KernelIdeal_ReferenceIdeal := by
  intro m ρ m' ρ' _ hagree
  refine ⟨fun c => Cert.KernelIdeal.Body.G m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans (Cert.ReferenceIdeal.RefValue.ref_eq_layer _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
